-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 57
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x1, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S1x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x1, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«131057_j59390807769620_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.FfnLayers.lean ====
/-
  The feed-forward part of the layer: relu (X · W1 + b1) · W2 + b2.

  The whole-array form is the host's chain of operations (two matrix products, two one-row biases stretched over
  the rows, a maximum with zero).  The kernel computes the same chain on a block of 5000 consecutive rows of X with
  the whole weight matrices and bias rows; every entry of the block result depends only on its own row of X, so
  the block result at entry (r, c) is the whole-array result at (o + r, c), where o is the block's first row.
  A change of float format is the identity on the extended reals, so the narrowing of the matrix products'
  operands does not appear in the mathematics.
-/
import proofs.«131057_j59390807769620_2_alg».proof.Proof.Gen.KernelIdeal.Skeleton
import proofs.«131057_j59390807769620_2_alg».proof.Proof.Gen.ReferenceIdeal
import proofs.«131057_j59390807769620_2_alg».proof.Proof.LibRowBlocks

noncomputable section

namespace Cert.Ffn

open Idealize.ShloMosaic Idealize.ShloMosaic.ValueIdx Cert.Lib.PlainDot Cert.Bridge

/-- relu (X · W1 + b1) · W2 + b2 on whole arrays, the biases given as one-row matrices. -/
def layers (X : FVec Ideal Cert.ReferenceIdeal.S50000x128 .f32) (W1 : FVec Ideal Cert.ReferenceIdeal.S128x128 .f32)
    (B1 : FVec Ideal Cert.ReferenceIdeal.S1x128 .f32) (W2 : FVec Ideal Cert.ReferenceIdeal.S128x128 .f32)
    (B2 : FVec Ideal Cert.ReferenceIdeal.S1x128 .f32) : FVec Ideal Cert.ReferenceIdeal.S50000x128 .f32 :=
  addf (Host.dotGeneral Cert.ReferenceIdeal.dot_S50000x128_S128x128_S50000x128_1_0_0_1_n_n none
      (maximumf
        (addf (Host.dotGeneral Cert.ReferenceIdeal.dot_S50000x128_S128x128_S50000x128_1_0_0_1_n_n none X W1)
          (broadcastInDim Cert.ReferenceIdeal.S50000x128 ![0, 1] Cert.ReferenceIdeal.Facts₀.bcast_S1x128_S50000x128_0_1 B1))
        (broadcastInDim Cert.ReferenceIdeal.S50000x128 ![] Cert.ReferenceIdeal.Facts₀.bcast_S_S50000x128
          (constant (F := Ideal) Cert.ReferenceIdeal.S_ .f32 0x00000000#32)))
      W2)
    (broadcastInDim Cert.ReferenceIdeal.S50000x128 ![0, 1] Cert.ReferenceIdeal.Facts₀.bcast_S1x128_S50000x128_0_1 B2)

/-- The kernel's product of a 5000-row block with a weight matrix contracts the block's columns with the matrix's rows. -/
theorem dims_block : Cert.KernelIdeal.dot_S5000x128_S128x128_S5000x128_1_0_0_1_n_n = DotDims.plain 5000 128 128 := rfl
/-- So does the host's product of the whole array with a weight matrix. -/
theorem dims_whole : Cert.ReferenceIdeal.dot_S50000x128_S128x128_S50000x128_1_0_0_1_n_n = DotDims.plain 50000 128 128 := rfl

/-- THE BLOCK RESULT IS THE ROW BLOCK OF THE WHOLE RESULT.  The kernel's payload on a block x0 of rows o … o + 4999
    of X and on whole copies x1 … x4 of W1, B1, W2, B2, read at entry y = (r, c), is `layers` of the whole arrays at
    (o + r, c).  The copies are given by where each of their entries sits in its array (e0 … e4), the output entry's
    place i by its two coordinates. -/
theorem payload_block (X : FVec Ideal Cert.ReferenceIdeal.S50000x128 .f32) (W1 : FVec Ideal Cert.ReferenceIdeal.S128x128 .f32)
    (B1 : FVec Ideal Cert.ReferenceIdeal.S1x128 .f32) (W2 : FVec Ideal Cert.ReferenceIdeal.S128x128 .f32)
    (B2 : FVec Ideal Cert.ReferenceIdeal.S1x128 .f32)
    (x0 : Vec Ideal Cert.KernelIdeal.S5000x128 .f32) (x1 : Vec Ideal Cert.KernelIdeal.S128x128 .f32)
    (x2 : Vec Ideal Cert.KernelIdeal.S1x128 .f32) (x3 : Vec Ideal Cert.KernelIdeal.S128x128 .f32)
    (x4 : Vec Ideal Cert.KernelIdeal.S1x128 .f32) (o : Nat)
    (e0 : Cert.KernelIdeal.S5000x128.Idx → Cert.ReferenceIdeal.S50000x128.Idx)
    (e1 e3 : Cert.KernelIdeal.S128x128.Idx → Cert.ReferenceIdeal.S128x128.Idx)
    (e2 e4 : Cert.KernelIdeal.S1x128.Idx → Cert.ReferenceIdeal.S1x128.Idx)
    (hx0 : ∀ j, x0 j = X (e0 j)) (hx1 : ∀ j, x1 j = W1 (e1 j)) (hx2 : ∀ j, x2 j = B1 (e2 j))
    (hx3 : ∀ j, x3 j = W2 (e3 j)) (hx4 : ∀ j, x4 j = B2 (e4 j))
    (he0r : ∀ j, (e0 j 0).val = o + (j 0).val) (he0c : ∀ j, (e0 j 1).val = (j 1).val)
    (he1 : ∀ j a, (e1 j a).val = (j a).val) (he2 : ∀ j a, (e2 j a).val = (j a).val)
    (he3 : ∀ j a, (e3 j a).val = (j a).val) (he4 : ∀ j a, (e4 j a).val = (j a).val)
    (y : Cert.KernelIdeal.S5000x128.Idx) (i : Cert.ReferenceIdeal.S50000x128.Idx)
    (hir : (i 0).val = o + (y 0).val) (hic : (i 1).val = (y 1).val) :
    Cert.KernelIdeal.Gen.k0_pay1 (F := Ideal) x0 x1 x2 x3 x4 y = layers X W1 B1 W2 B2 i := by
  -- the output entry sits where the input block's entry of the same coordinates sits
  obtain rfl : i = e0 y := funext fun a => Fin.ext (by
    match a with
    | ⟨0, _⟩ => exact hir.trans (he0r y).symm
    | ⟨1, _⟩ => exact hic.trans (he0c y).symm)
  -- a row of the block is a row of the array: same columns, the contraction position untouched
  have h0 : ∀ (y : Cert.KernelIdeal.S5000x128.Idx) (k : Fin 128), e0 (rowIdx y k) = rowIdx (e0 y) k := fun y k =>
    funext fun a => Fin.ext (by
      match a with
      | ⟨0, _⟩ => exact (he0r _).trans (he0r y).symm
      | ⟨1, _⟩ => exact he0c _)
  have hcol : ∀ (e : Cert.KernelIdeal.S128x128.Idx → Cert.ReferenceIdeal.S128x128.Idx) (_ : ∀ j a, (e j a).val = (j a).val)
      (y : Cert.KernelIdeal.S5000x128.Idx) (k : Fin 128), e (colIdx y k) = colIdx (e0 y) k := fun e he y k =>
    funext fun a => Fin.ext (by
      match a with
      | ⟨0, _⟩ => exact he _ _
      | ⟨1, _⟩ => exact (he _ _).trans (he0c y).symm)
  have hrow : ∀ (e : Cert.KernelIdeal.S1x128.Idx → Cert.ReferenceIdeal.S1x128.Idx) (_ : ∀ j a, (e j a).val = (j a).val)
      (y : Cert.KernelIdeal.S5000x128.Idx), e (rowZero y) = rowZero (e0 y) := fun e he y =>
    funext fun a => Fin.ext (by
      match a with
      | ⟨0, _⟩ => exact he _ _
      | ⟨1, _⟩ => exact (he _ _).trans (he0c y).symm)
  unfold Cert.KernelIdeal.Gen.k0_pay1 layers
  simp only [shapeCast_self]
  exact output_block (R := 5000) (N := 50000) (K := 128) (C := 128) .bf16 .bf16 _ dims_block _ dims_whole none none _ W2 B2
    _ _ x4 e0 e3 e4 e0
    (fun j => embed_block (R := 5000) (N := 50000) (K := 128) (C := 128) .bf16 .bf16 _ dims_block _ dims_whole none none
      X W1 B1 _ _ x2 e0 e1 e2 e0 hx0 hx1 hx2 h0 (hcol e1 he1) (hrow e2 he2) _ _ _ 0x00000000#32 j)
    hx3 hx4 h0 (hcol e3 he3) (hrow e4 he4) _ _ y

end Cert.Ffn

end
-- ==== Proof.FfnBlocks.lean ====
/-
  The kernel's result array, from its ten row blocks.

  Grid point t works on rows 5000·t … 5000·t + 4999: it reads that row block of the aggregated features and whole
  copies of the two weight matrices and the two bias rows, and writes back the same row block of the result.  By
  `Cert.Ffn.payload_block` what it writes is the row block of `Cert.Ffn.layers` of the whole arrays; the ten
  blocks tile the 50000 rows (row r lies in block r / 5000), so after the run the result array IS `layers` of the
  arrays the region found.
-/
import proofs.«131057_j59390807769620_2_alg».proof.Proof.Gen.KernelIdeal.Value
import proofs.«131057_j59390807769620_2_alg».proof.Proof.FfnLayers

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every access of the body starts at the origin of its block. -/
theorem origin : (![0, 0] : Fin 2 → Nat) = fun _ => 0 := funext fun a => by fin_cases a <;> rfl

/-- Where each window's block sits at point t: the features' and the result's at block row t, the weights' and
    the biases' at the one block their arrays have. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array as one function of the arrays the region finds: the two dense layers of the aggregated
    features, the weights and the bias rows. -/
def result (c : Dev nD) : Buf (Elt Ideal) ((c : Thread nD τ).loc main_v38) :=
  Cert.Ffn.layers (V m c main_v35) (V m c main_arg4) (V m c main_v36) (V m c main_arg6) (V m c main_v37)

/-- Each input window's block at point t, read at an entry, is the array the region finds read where the entry
    sits. -/
theorem features_block (c : Dev nD) (t : Fin cfg0.N) (j : ((cfg0.win 0).xblock (cfg0.grid.coords t)).Idx) :
    iblk m c 0 t j = V m c main_v35 (((cfg0.win 0).blk t).view.emb j) := by
  unfold iblk; rw [View.read_apply]; exact cast_eq _ _
theorem weights1_block (c : Dev nD) (t : Fin cfg0.N) (j : ((cfg0.win 1).xblock (cfg0.grid.coords t)).Idx) :
    iblk m c 1 t j = V m c main_arg4 (((cfg0.win 1).blk t).view.emb j) := by
  unfold iblk; rw [View.read_apply]; exact cast_eq _ _
theorem bias1_block (c : Dev nD) (t : Fin cfg0.N) (j : ((cfg0.win 2).xblock (cfg0.grid.coords t)).Idx) :
    iblk m c 2 t j = V m c main_v36 (((cfg0.win 2).blk t).view.emb j) := by
  unfold iblk; rw [View.read_apply]; exact cast_eq _ _
theorem weights2_block (c : Dev nD) (t : Fin cfg0.N) (j : ((cfg0.win 3).xblock (cfg0.grid.coords t)).Idx) :
    iblk m c 3 t j = V m c main_arg6 (((cfg0.win 3).blk t).view.emb j) := by
  unfold iblk; rw [View.read_apply]; exact cast_eq _ _
theorem bias2_block (c : Dev nD) (t : Fin cfg0.N) (j : ((cfg0.win 4).xblock (cfg0.grid.coords t)).Idx) :
    iblk m c 4 t j = V m c main_v37 (((cfg0.win 4).blk t).view.emb j) := by
  unfold iblk; rw [View.read_apply]; exact cast_eq _ _

/-- Where the entries of each window's block sit in its array at point t: the features' and the result's rows
    shifted by 5000·t, everything else in place. -/
theorem features_place (t : Fin cfg0.N) (j : S5000x128.Idx) :
    ((((cfg0.win 0).blk t).view.emb j) 0).val = t.val * 5000 + (j 0).val
      ∧ ((((cfg0.win 0).blk t).view.emb j) 1).val = (j 1).val := by
  obtain ⟨p00, p01, -⟩ := block_places t
  constructor
  · show win0_0.index t (0 : Fin 2) * 5000 + 1 * (j 0).val = _; rw [p00]; omega
  · show win0_0.index t (1 : Fin 2) * 128 + 1 * (j 1).val = _; rw [p01]; omega
theorem result_place (t : Fin cfg0.N) (j : S5000x128.Idx) :
    ((((cfg0.win 5).blk t).view.emb j) 0).val = t.val * 5000 + (j 0).val
      ∧ ((((cfg0.win 5).blk t).view.emb j) 1).val = (j 1).val := by
  obtain ⟨-, -, -, -, -, -, -, -, -, -, p50, p51⟩ := block_places t
  constructor
  · show win0_5.index t (0 : Fin 2) * 5000 + 1 * (j 0).val = _; rw [p50]; omega
  · show win0_5.index t (1 : Fin 2) * 128 + 1 * (j 1).val = _; rw [p51]; omega
theorem weights1_place (t : Fin cfg0.N) (j : S128x128.Idx) (a : Fin 2) :
    ((((cfg0.win 1).blk t).view.emb j) a).val = (j a).val := by
  obtain ⟨-, -, p10, p11, -⟩ := block_places t
  match a with
  | ⟨0, _⟩ => show win0_1.index t (0 : Fin 2) * 128 + 1 * (j 0).val = (j 0).val; rw [p10]; omega
  | ⟨1, _⟩ => show win0_1.index t (1 : Fin 2) * 128 + 1 * (j 1).val = (j 1).val; rw [p11]; omega
theorem bias1_place (t : Fin cfg0.N) (j : S1x128.Idx) (a : Fin 2) :
    ((((cfg0.win 2).blk t).view.emb j) a).val = (j a).val := by
  obtain ⟨-, -, -, -, p20, p21, -⟩ := block_places t
  match a with
  | ⟨0, _⟩ => show win0_2.index t (0 : Fin 2) * 1 + 1 * (j 0).val = (j 0).val; rw [p20]; omega
  | ⟨1, _⟩ => show win0_2.index t (1 : Fin 2) * 128 + 1 * (j 1).val = (j 1).val; rw [p21]; omega
theorem weights2_place (t : Fin cfg0.N) (j : S128x128.Idx) (a : Fin 2) :
    ((((cfg0.win 3).blk t).view.emb j) a).val = (j a).val := by
  obtain ⟨-, -, -, -, -, -, p30, p31, -⟩ := block_places t
  match a with
  | ⟨0, _⟩ => show win0_3.index t (0 : Fin 2) * 128 + 1 * (j 0).val = (j 0).val; rw [p30]; omega
  | ⟨1, _⟩ => show win0_3.index t (1 : Fin 2) * 128 + 1 * (j 1).val = (j 1).val; rw [p31]; omega
theorem bias2_place (t : Fin cfg0.N) (j : S1x128.Idx) (a : Fin 2) :
    ((((cfg0.win 4).blk t).view.emb j) a).val = (j a).val := by
  obtain ⟨-, -, -, -, -, -, -, -, p40, p41, -⟩ := block_places t
  match a with
  | ⟨0, _⟩ => show win0_4.index t (0 : Fin 2) * 1 + 1 * (j 0).val = (j 0).val; rw [p40]; omega
  | ⟨1, _⟩ => show win0_4.index t (1 : Fin 2) * 128 + 1 * (j 1).val = (j 1).val; rw [p41]; omega

/-- THE BODY'S RESULT AT A BLOCK ENTRY y of point t is the entry of `result` where y sits in the array. -/
theorem entry_eq (c : Dev nD) (t : Fin cfg0.N) (y : S5000x128.Idx) :
    k0_pay1 (F := Ideal) (iblk m c 0 t) (iblk m c 1 t) (iblk m c 2 t) (iblk m c 3 t) (iblk m c 4 t) y
      = result m c (((cfg0.win 5).blk t).view.emb y) := by
  unfold result
  exact Cert.Ffn.payload_block (V m c main_v35) (V m c main_arg4) (V m c main_v36) (V m c main_arg6) (V m c main_v37)
    (iblk m c 0 t) (iblk m c 1 t) (iblk m c 2 t) (iblk m c 3 t) (iblk m c 4 t) (t.val * 5000)
    (fun j => ((cfg0.win 0).blk t).view.emb j)
    (fun j => ((cfg0.win 1).blk t).view.emb j) (fun j => ((cfg0.win 3).blk t).view.emb j)
    (fun j => ((cfg0.win 2).blk t).view.emb j) (fun j => ((cfg0.win 4).blk t).view.emb j)
    (features_block m c t) (weights1_block m c t) (bias1_block m c t) (weights2_block m c t) (bias2_block m c t)
    (fun j => (features_place t j).1) (fun j => (features_place t j).2)
    (weights1_place t) (bias1_place t) (weights2_place t) (bias2_place t)
    y _ (result_place t y).1 (result_place t y).2

/-- WHAT POINT t WRITES BACK is row block t of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S5000x128) origin, View.ld_unit_zero (S := S128x128) origin,
    View.ld_unit_zero (S := S1x128) origin]
  funext y
  rw [View.read_apply]
  dsimp only [Pipeline.Window.cut]
  rw [entry_eq m c t]
  exact (cast_eq _ _).symm

/-- An entry of the result array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v38).slice (win0_5.rect t)).set ↔ _
  rw [View.set_slice_whole, Rect.mem_set_unit]
  exact Iff.rfl

/-- THE TEN BLOCKS TILE THE ARRAY: row r is in block r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, -, p50, p51⟩ := block_places t
  have ht : t.val = (i 0).val / 5000 := rfl
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [p50, ht]; omega
  | ⟨1, _⟩ =>
    show win0_5.index t (1 : Fin 2) * 128 ≤ (i 1).val ∧ (i 1).val < win0_5.index t (1 : Fin 2) * 128 + 128
    rw [p51]; omega

/-- THE RESULT ARRAY after the run is `result`. -/
theorem final (c : Dev nD) : (dats m 0 c).arrAt 5 cfg0.N = result m c :=
  (dats m 0 c).arrAt_eq_of_cover 5 (result m c) (fun t _ => flushed_eq m c t) covered

/-- The run, read: the result array at `result`, the arguments unchanged. -/
theorem run : θ_run defs (onTc (τ := τ) (main (F := Ideal))) ⟨m, fun _ => 0, ρ⟩ fun r => ∀ c : Dev nD,
      r.2.mem ((c : Thread nD τ).loc main_v38) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Blocks

end
-- ==== Proof.FfnHost.lean ====
/-
  The arrays the kernel's region finds, as the reference's stages.

  Before the region the host aggregates the features: out-degrees by a scatter-add of ones, the per-edge coefficient
  rsqrt (deg[src] · deg[dst]) · w, the gathered source rows scaled by it, and their scatter-add onto the target rows.
  The reference runs the same operations on the same arguments, so the aggregated array the region finds is the
  reference's stage of that name.  The two bias rows reach the region as the bias vectors reshaped to one-row
  matrices, which is how the reference lays them out before stretching them over the rows.  With these the kernel's
  result is the reference's last stage.
-/
import proofs.«131057_j59390807769620_2_alg».proof.Proof.Gen.ReferenceIdeal.Read
import proofs.«131057_j59390807769620_2_alg».proof.Proof.FfnBlocks
import Idealize.ShloMosaic.Lib.StableHlo.Run

noncomputable section

namespace Cert.KernelIdeal.Found

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The aggregated features the region finds are the reference's aggregated features of the same arguments. -/
theorem aggregated (c : Dev nD) :
    (V m c main_v35 : S50000x128.Idx → EReal)
      = Cert.ReferenceIdeal.Read.val_main_v35 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results_simp
  rfl

set_option maxRecDepth 8192 in
set_option maxHeartbeats 2000000 in
/-- The first bias row the region finds: the bias vector as a one-row matrix. -/
theorem bias_row1 (c : Dev nD) :
    (V m c main_v36 : S1x128.Idx → EReal)
      = Cert.ReferenceIdeal.Read.val_main_v37 (F := Ideal) (m ((c : Thread nD τ).loc main_arg5)) := by
  have e : (V m c main_v36 : S1x128.Idx → EReal)
      = shapeCast S1x128 (m ((c : Thread nD τ).loc main_arg5)) Facts₀.shapeCasts_S128_S1x128 := by
    dsimp only [V, hostOps0]
    after_results_simp
    rfl
  rw [e]
  exact Cert.Bridge.reshapeRow_eq (φ := .f32) _ _ _

set_option maxRecDepth 8192 in
set_option maxHeartbeats 2000000 in
/-- The second bias row the region finds: the bias vector as a one-row matrix. -/
theorem bias_row2 (c : Dev nD) :
    (V m c main_v37 : S1x128.Idx → EReal)
      = Cert.ReferenceIdeal.Read.val_main_v42 (F := Ideal) (m ((c : Thread nD τ).loc main_arg7)) := by
  have e : (V m c main_v37 : S1x128.Idx → EReal)
      = shapeCast S1x128 (m ((c : Thread nD τ).loc main_arg7)) Facts₀.shapeCasts_S128_S1x128 := by
    dsimp only [V, hostOps0]
    after_results_simp
    rfl
  rw [e]
  exact Cert.Bridge.reshapeRow_eq (φ := .f32) _ _ _

/-- THE KERNEL'S RESULT IS THE REFERENCE'S LAST STAGE of the same arguments. -/
theorem result_eq (c : Dev nD) :
    Cert.KernelIdeal.Blocks.result m c
      = Cert.ReferenceIdeal.Read.val_main_v44 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  unfold Cert.KernelIdeal.Blocks.result
  rw [aggregated m c, bias_row1 m c, bias_row2 m c, V_main_arg4 m c, V_main_arg6 m c]
  rfl

end Cert.KernelIdeal.Found

end
-- ==== Proof.lean ====
/-
  A graph-convolution layer followed by a two-layer feed-forward network, kernel against reference, on the extended reals.

  Both programs first aggregate the node features on the host with the same operations on the same arguments:
  out-degrees by a scatter-add of ones over the source indices, clamped below by one; per edge the coefficient
  rsqrt (deg[src] · deg[dst]) · w; the gathered source rows scaled by it and scatter-added onto the target rows.  The
  reference then computes relu (agg · W1 + b1) · W2 + b2 on the whole 50000 × 128 array.  The kernel computes the same
  expression on ten blocks of 5000 rows, with the matrix products' operands narrowed to a shorter float format first,
  which is the identity on the extended reals.  An entry of the result depends only on its own row of agg, so each
  block's result is the matching row block of the whole-array result (`Cert.Ffn.payload_block`), the ten blocks tile
  the rows (`Cert.KernelIdeal.Blocks.final`), and the arrays the kernel's region finds are the reference's stages
  (`Cert.KernelIdeal.Found.result_eq`).  No sum is rearranged and no factor is moved across a sum, so finiteness of
  the inputs is not used.  The idealization rewrote nothing, so `preserves` has no conjunct.
-/
import proofs.«131057_j59390807769620_2_alg».proof.Defs
import proofs.«131057_j59390807769620_2_alg».proof.Proof.Gen.Kernel
import proofs.«131057_j59390807769620_2_alg».proof.Proof.Gen.Kernel.Skeleton
import proofs.«131057_j59390807769620_2_alg».proof.Proof.Gen.Kernel.Launch
import proofs.«131057_j59390807769620_2_alg».proof.Proof.Gen.Kernel.Points
import proofs.«131057_j59390807769620_2_alg».proof.Proof.Gen.Kernel.Frame
import proofs.«131057_j59390807769620_2_alg».proof.Proof.Gen.KernelIdeal
import proofs.«131057_j59390807769620_2_alg».proof.Proof.Gen.KernelIdeal.Skeleton
import proofs.«131057_j59390807769620_2_alg».proof.Proof.Gen.KernelIdeal.Launch
import proofs.«131057_j59390807769620_2_alg».proof.Proof.Gen.KernelIdeal.Points
import proofs.«131057_j59390807769620_2_alg».proof.Proof.Gen.KernelIdeal.Frame
import proofs.«131057_j59390807769620_2_alg».proof.Proof.Gen.ReferenceIdeal
import proofs.«131057_j59390807769620_2_alg».proof.Proof.Gen.Pre_finite_inputs
import proofs.«131057_j59390807769620_2_alg».proof.Proof.Gen.KernelIdeal.Value
import proofs.«131057_j59390807769620_2_alg».proof.Proof.Gen.ReferenceIdeal.Run
import proofs.«131057_j59390807769620_2_alg».proof.Proof.Gen.ReferenceIdeal.Read
import proofs.«131057_j59390807769620_2_alg».proof.Proof.FfnHost
import Idealize.ShloMosaic.Adequacy
import Idealize.ShloMosaic.Init

noncomputable section

namespace Cert.Proof

open Idealize.ShloMosaic Idealize.SL.Sem Cert.Kernel

/-- Every weakly fair execution of the kernel ends without a fault and with its arguments unchanged. -/
theorem frame_kernel : Cert.frame_Kernel := fun m ρ _ => Cert.Kernel.Gen.frame m ρ
/-- The same for the kernel read on the extended reals. -/
theorem frame_kernel_ideal : Cert.frame_KernelIdeal := fun m ρ _ => Cert.KernelIdeal.Gen.frame m ρ
/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with relu (agg · W1 + b1) · W2 + b2 of the same aggregated features:
    the kernel's ten row blocks are the row blocks of the reference's whole-array result. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v44_eq, a0, a1, a2, a3, a4, a5, a6, a7]
  exact (Cert.KernelIdeal.Found.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
